-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x768 : Shape := ⟨3, ![64, 512, 768]⟩
abbrev S_ : Shape := ⟨0, ![]⟩

class Facts : Prop where
  bcast_S_S64x512x768 : S_.BroadcastsInDim S64x512x768 (![] : Fin 0 → Fin S64x512x768.rank)
  reducesTo_S64x512x768_S_d0_1_2 : S64x512x768.ReducesTo [0, 1, 2] S_
  h_S_ : 0 < S_.numel

variable [Facts]

def fn {F : FTy → Type} [FloatOps F] (main_arg0 : FVec F S64x512x768 .f32) : IVec S_ 1 :=
  let main_v0 : FVec F S64x512x768 .f32 := Host.absf main_arg0
  let main_cst : FVec F S_ .f32 := constant S_ .f32 0x7F800000#32
  let main_v1 : FVec F S64x512x768 .f32 := broadcastInDim S64x512x768 ![] bcast_S_S64x512x768 main_cst
  let main_v2 : IVec S64x512x768 1 := cmpf .olt main_v0 main_v1
  let main_c : IVec S_ 1 := constantI S_ 1 1#1
  let main_v3 : IVec S_ 1 := (fun x v => Host.reduce IntOp.andi x v reducesTo_S64x512x768_S_d0_1_2 h_S_) main_v2 main_c
  main_v3
-- ==== Kernel.lean ====
abbrev S64x512x768 : Shape := ⟨3, ![64, 512, 768]⟩
abbrev S4x512x768 : Shape := ⟨3, ![4, 512, 768]⟩
abbrev S64x1x393216 : Shape := ⟨3, ![64, 1, 393216]⟩

abbrev nBuf : Space → Nat
  | .hbm => 3
  | .vmem => 4
  | .smem => 0
  | _ => 0

abbrev bufTy : (tb : Table) → Fin (tcTables nBuf tb) → BufTy
  | .hbm, ⟨0, _⟩ => ⟨S64x512x768, .f32⟩
  | .hbm, ⟨1, _⟩ => ⟨S64x512x768, .f32⟩
  | .hbm, ⟨2, _⟩ => ⟨S64x1x393216, .f32⟩
  | .local _ .vmem, ⟨0, _⟩ => ⟨S4x512x768, .f32⟩
  | .local _ .vmem, ⟨1, _⟩ => ⟨S4x512x768, .f32⟩
  | .local _ .vmem, ⟨2, _⟩ => ⟨S4x512x768, .f32⟩
  | .local _ .vmem, ⟨3, _⟩ => ⟨S4x512x768, .f32⟩
  | _, _ => ⟨S64x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S4x512x768_S4x512x768_0_0_0 : ∀ a, (![0, 0, 0] : Fin 3 → Nat) a + S4x512x768.size a ≤ S4x512x768.size a
  h_S4x512x768 : 0 < S4x512x768.numel
  shapeCasts_S64x512x768_S64x1x393216 : S64x512x768.ShapeCasts S64x1x393216
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x768.size a ≤ S64x512x768.size a
  hwx0_0 : ∀ i : grid0.Coords, EltTy.bits .f32 = 32 ∨ (Rect.block (s := S64x512x768) S4x512x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x512x768.size a ≤ S64x512x768.size a
  hwx0_1 : ∀ i : grid0.Coords, EltTy.bits .f32 = 32 ∨ (Rect.block (s := S64x512x768) S4x512x768.size (cc0_transform_1 i) (hinb0_1 i)).WholeWords (EltTy.packing .f32)

variable [Facts₀]

abbrev win0_0 : Pipeline.Window sig grid0 :=
  Pipeline.Window.ofSpec (Memref.whole main_arg0) S4x512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4x512x768.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where
  halias0_1 : Pipeline.Aliased win0 0 1

variable [Facts]
-- ==== ReferenceIdeal.lean ====
abbrev S64x512x768 : Shape := ⟨3, ![64, 512, 768]⟩
abbrev S64x1x393216 : Shape := ⟨3, ![64, 1, 393216]⟩

abbrev nBuf : Space → Nat
  | .hbm => 2
  | .vmem => 0
  | .smem => 0
  | _ => 0

abbrev bufTy : (tb : Table) → Fin (tcTables nBuf tb) → BufTy
  | .hbm, ⟨0, _⟩ => ⟨S64x512x768, .f32⟩
  | .hbm, ⟨1, _⟩ => ⟨S64x1x393216, .f32⟩
  | _, _ => ⟨S64x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]

class Facts₀ : Prop where
  shapeCasts_S64x512x768_S64x1x393216 : S64x512x768.ShapeCasts S64x1x393216

variable [Facts₀]

class Facts : Prop extends Facts₀ where

variable [Facts]
-- ==== Proof.CopiedArray.lean ====
/-
  The array the region leaves in its result buffer. The region's body copies its input block to its output block, and both
  windows cut the arrays `[64, 512, 768]` into sixteen blocks `[4, 512, 768]` along the first axis by the same index map
  `b ↦ (b, 0, 0)`. So what grid point `t` writes back is block `t` of the ARGUMENT array, the sixteen blocks cover every index
  (row `r` of the first axis lies in block `r / 4`), and the result buffer ends holding the argument array, index by index.
-/
import proofs.«154018_j40836549050799_2_alg».proof.Proof.Gen.KernelIdeal.Frame
import Idealize.ShloMosaic.Lib.Pipeline.Value

set_option maxRecDepth 16384

noncomputable section

namespace Cert.KernelIdeal.Copied

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The body's one load and one store go through the whole block: all three offsets are zero. -/
theorem offsets_zero : (![0, 0, 0] : Fin 3 → Nat) = fun _ => 0 := funext fun a => by fin_cases a <;> rfl

/-- The two windows' index maps agree at every grid point; the block index is at most 15 on the first axis and
    zero on the other two (decided over the sixteen points). -/
theorem index_facts : ∀ t : Fin cfg0.N, win0_0.index t (0 : Fin 3) = win0_1.index t (0 : Fin 3)
    ∧ win0_0.index t (1 : Fin 3) = win0_1.index t (1 : Fin 3)
    ∧ win0_0.index t (2 : Fin 3) = win0_1.index t (2 : Fin 3)
    ∧ win0_1.index t (0 : Fin 3) ≤ 15
    ∧ win0_1.index t (1 : Fin 3) = 0
    ∧ win0_1.index t (2 : Fin 3) = 0 :=
  (by decide +kernel : ∀ t : Fin grid0.N, _)

/-- Every block index `(q, 0, 0)`, `q < 16`, is some grid point's. -/
theorem index_onto : ∀ q : Fin 16, ∃ t : Fin cfg0.N, win0_1.index t = ![q.val, 0, 0] :=
  (by decide +kernel : ∀ q : Fin 16, ∃ t : Fin grid0.N, win0_1.index t = ![q.val, 0, 0])

/-- The argument array as the region finds it, typed as contents of the result buffer (one shape, one element type). -/
abbrev source (c : Dev nD) : S64x512x768.Idx → Elt F .f32 := V m c main_arg0

/-- What grid point `t` writes back is block `t` of the argument array: the store's value is the loaded input
    block, and the input block sits in its array exactly where the output block sits in its own. -/
theorem written_eq (c : Dev nD) (t : Fin cfg0.N) :
    (dats m 0 c).flushed 1 t = ((cfg0.win 1).blk t).view.read (Elt F) (source m c) := by
  show (cfg0.win 1).cut (grid0.coords t) ((dats m 0 c).after 1 t) = _
  rw [after0_1]
  unfold out0_1
  rw [View.canon_unit_zero offsets_zero]
  simp only [View.ld_unit_zero (S := S4x512x768) offsets_zero]
  obtain ⟨e0, e1, e2, e3, e4, e5⟩ := index_facts t
  funext j
  show V m c main_arg0 (((cfg0.win 0).blk t).view.emb j) = V m c main_arg0 (((cfg0.win 1).blk t).view.emb j)
  have h0 : ((cfg0.win 0).blk t).view.emb j = ((cfg0.win 1).blk t).view.emb j := by
    funext a; apply Fin.ext
    match a with
    | ⟨0, _⟩ => show win0_0.index t (0 : Fin 3) * 4 + 1 * (j 0).val = win0_1.index t (0 : Fin 3) * 4 + 1 * (j 0).val; omega
    | ⟨1, _⟩ => show win0_0.index t (1 : Fin 3) * 512 + 1 * (j 1).val = win0_1.index t (1 : Fin 3) * 512 + 1 * (j 1).val; omega
    | ⟨2, _⟩ => show win0_0.index t (2 : Fin 3) * 768 + 1 * (j 2).val = win0_1.index t (2 : Fin 3) * 768 + 1 * (j 2).val; omega
  rw [h0]

/-- An index of the result array is in point `t`'s block iff each coordinate is in the block's range on its axis. -/
theorem mem_block (t : Fin cfg0.N) (i : S64x512x768.Idx) :
    i ∈ ((cfg0.win 1).blk t).view.set ↔ ∀ a : Fin 3, win0_1.index t a * S4x512x768.size a ≤ (i a).val ∧ (i a).val < win0_1.index t a * S4x512x768.size a + S4x512x768.size a := by
  show i ∈ ((View.whole main_v0).slice (win0_1.rect t)).set ↔ _
  rw [View.set_slice_whole, Rect.mem_set_unit]
  exact Iff.rfl

/-- The sixteen blocks cover the array: index `i` is in the block of the point whose block index is `(i₀ / 4, 0, 0)`. -/
theorem covered (i : S64x512x768.Idx) :
    ∃ t : Fin cfg0.N, (cfg0.win 1).flush t = true ∧ i ∈ ((cfg0.win 1).blk t).view.set := by
  have hi0 : (i 0).val < 64 := (i 0).isLt
  have hi1 : (i 1).val < 512 := (i 1).isLt
  have hi2 : (i 2).val < 768 := (i 2).isLt
  obtain ⟨t, ht⟩ := index_onto ⟨(i 0).val / 4, by omega⟩
  have q0 : win0_1.index t (0 : Fin 3) = (i 0).val / 4 := congrFun ht 0
  have q1 : win0_1.index t (1 : Fin 3) = 0 := congrFun ht 1
  have q2 : win0_1.index t (2 : Fin 3) = 0 := congrFun ht 2
  refine ⟨t, flush0_1 t, ?_⟩
  rw [mem_block]
  intro a
  match a with
  | ⟨0, _⟩ => show win0_1.index t (0 : Fin 3) * 4 ≤ (i 0).val ∧ (i 0).val < win0_1.index t (0 : Fin 3) * 4 + 4; omega
  | ⟨1, _⟩ => show win0_1.index t (1 : Fin 3) * 512 ≤ (i 1).val ∧ (i 1).val < win0_1.index t (1 : Fin 3) * 512 + 512; omega
  | ⟨2, _⟩ => show win0_1.index t (2 : Fin 3) * 768 ≤ (i 2).val ∧ (i 2).val < win0_1.index t (2 : Fin 3) * 768 + 768; omega

/-- THE RESULT BUFFER AFTER THE REGION holds the argument array as launched. -/
theorem result_array (c : Dev nD) :
    (dats m 0 c).arrAt 1 cfg0.N = (m ((c : Thread nD τ).loc main_arg0) : S64x512x768.Idx → Elt F .f32) :=
  ((dats m 0 c).arrAt_eq_of_cover 1 (source m c) (fun t _ => written_eq m c t) covered).trans (V_main_arg0 m c)

end Cert.KernelIdeal.Copied

end
-- ==== Proof.ReshapedRun.lean ====
/-
  The kernel program's run, with its result named. After the region the result buffer of the copy holds the argument
  array (`Copied.result_array`); the one host operation that follows re-shapes that buffer `[64, 512, 768] → [64, 1, 393216]`
  (both row-major, the same linear order of elements), and it writes a buffer the region never touches. So the program's
  result is the re-shaping of the ARGUMENT array, and the argument array itself ends as launched.
-/
import proofs.«154018_j40836549050799_2_alg».proof.Proof.CopiedArray
import Idealize.ShloMosaic.Lib.StableHlo.Run

set_option maxRecDepth 16384

noncomputable section

namespace Cert.KernelIdeal.Reshaped

open Cert.KernelIdeal Cert.KernelIdeal.Gen Idealize.ShloMosaic Idealize.ShloMosaic.TcCoe Idealize.SL.Sem Idealize.ShloMosaic.StableHlo
open Idealize.ShloMosaic.Pipeline (Dat)

variable {F : FTy → Type} [FloatOps F]
variable (m : (ℓ : Loc nD τ sig) → Buf (Elt F) ℓ) (ρ : Dev nD → PrngReg)

/-- The re-shaped result's buffer is unscoped and is neither window's array: the region passes it by. -/
theorem result_bypasses : main_v1 ∈ Pipeline.restRefs sig (cfgs 0).spec :=
  Pipeline.mem_restRefs_of main_v1 rfl (by intro w; fin_cases w <;> decide)

/-- What the host operation after the region leaves in the result: the re-shaping of what the region left in the
    copy's buffer, which is the argument array as launched. -/
theorem tail_value (c : Dev nD) :
    Pipeline.afterTail₀ cfgs (dats m) 0 (V0 m) [hostOps1] c main_v1
      = shapeCast _ (m ((c : Thread nD τ).loc main_arg0)) shapeCasts_S64x512x768_S64x1x393216 := by
  unfold Pipeline.afterTail₀
  show StableHlo.after hostOps1 _ (Proc.devRef .tc main_v1) = _
  after_results
  have e : Pipeline.withArrays (cfgs 0).spec c (V0 m c) (fun w => (dats m 0 c).arrAt w (cfgs 0).N) (Proc.devRef .tc main_v0)
      = (m ((c : Thread nD τ).loc main_arg0) : S64x512x768.Idx → Elt F .f32) :=
    (Pipeline.withArrays_arr spec0 launch0.win.arr_inj c _ _ 1).trans (Copied.result_array m c)
  rw [e]
  rfl

/-- THE RUN: every weakly fair execution terminates with the result at the re-shaping of the argument array and the
    argument array unchanged (the input window stages it and never writes it back). -/
theorem run : θ_run defs (onTc (τ := τ) (main (F := F))) ⟨m, fun _ => 0, ρ⟩ fun r => ∀ c : Dev nD,
      r.2.mem ((c : Thread nD τ).loc main_v1) = shapeCast _ (m ((c : Thread nD τ).loc main_arg0)) shapeCasts_S64x512x768_S64x1x393216
      ∧ r.2.mem ((c : Thread nD τ).loc main_arg0) = m ((c : Thread nD τ).loc main_arg0) :=
  (θ_run defs _ _).mono (fun r h c => ⟨((h c).2 main_v1 result_bypasses).trans (tail_value m c),
      ((h c).1 0).trans (((dats m 0 c).arrAt_in 0 rfl _).trans ((A_eq m c 0).trans (V_main_arg0 m c)))⟩)
    (run_main m ρ)

end Cert.KernelIdeal.Reshaped

end
-- ==== Proof.lean ====
/-
  The proof of `Cert.Claim`. The kernel program copies its argument `x : f32[64, 512, 768]` block by block (sixteen
  blocks of four rows of the first axis, input and output cut alike) into a buffer of its own and then re-shapes that buffer
  to `[64, 1, 393216]`, merging the two trailing axes; the reference re-shapes `x` itself. No arithmetic is done on either
  side, so nothing depends on the inputs being finite: the copy's buffer ends holding `x` index by index
  (Proof/CopiedArray.lean), the kernel program's result is therefore the re-shaping of `x` (Proof/ReshapedRun.lean), and that
  is literally the term the reference's run ends at, once the two programs' argument arrays agree. The three frames are the
  generated ones (the reference's is its run with the result dropped); no operation was rewritten by the idealization, so
  `preserves` is `True`.
-/
import proofs.«154018_j40836549050799_2_alg».proof.Defs
import proofs.«154018_j40836549050799_2_alg».proof.Proof.Gen.Kernel
import proofs.«154018_j40836549050799_2_alg».proof.Proof.Gen.Kernel.Frame
import proofs.«154018_j40836549050799_2_alg».proof.Proof.Gen.KernelIdeal
import proofs.«154018_j40836549050799_2_alg».proof.Proof.Gen.KernelIdeal.Frame
import proofs.«154018_j40836549050799_2_alg».proof.Proof.Gen.ReferenceIdeal
import proofs.«154018_j40836549050799_2_alg».proof.Proof.Gen.ReferenceIdeal.Run
import proofs.«154018_j40836549050799_2_alg».proof.Proof.Gen.Pre_finite_inputs
import proofs.«154018_j40836549050799_2_alg».proof.Proof.ReshapedRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end at the re-shaping of the argument array: the kernel program's by its run read back, the
    reference's by its own run, the two argument arrays being equal. -/
theorem algebraic : Cert.algebraic_KernelIdeal_ReferenceIdeal := by
  intro m ρ m' ρ' _ hagree
  refine ⟨_, Cert.KernelIdeal.Reshaped.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [hagree c]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
